-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2097152x48 : Shape := ⟨2, ![2097152, 48]⟩
abbrev S64x32 : Shape := ⟨2, ![64, 32]⟩
abbrev S16x64 : Shape := ⟨2, ![16, 64]⟩
abbrev S64x64 : Shape := ⟨2, ![64, 64]⟩
abbrev S3x64 : Shape := ⟨2, ![3, 64]⟩
abbrev S_ : Shape := ⟨0, ![]⟩

class Facts : Prop where
  bcast_S_S2097152x48 : S_.BroadcastsInDim S2097152x48 (![] : Fin 0 → Fin S2097152x48.rank)
  reducesTo_S2097152x48_S_d0_1 : S2097152x48.ReducesTo [0, 1] S_
  h_S_ : 0 < S_.numel
  bcast_S_S64x32 : S_.BroadcastsInDim S64x32 (![] : Fin 0 → Fin S64x32.rank)
  reducesTo_S64x32_S_d0_1 : S64x32.ReducesTo [0, 1] S_
  bcast_S_S16x64 : S_.BroadcastsInDim S16x64 (![] : Fin 0 → Fin S16x64.rank)
  reducesTo_S16x64_S_d0_1 : S16x64.ReducesTo [0, 1] S_
  bcast_S_S64x64 : S_.BroadcastsInDim S64x64 (![] : Fin 0 → Fin S64x64.rank)
  reducesTo_S64x64_S_d0_1 : S64x64.ReducesTo [0, 1] S_
  bcast_S_S3x64 : S_.BroadcastsInDim S3x64 (![] : Fin 0 → Fin S3x64.rank)
  reducesTo_S3x64_S_d0_1 : S3x64.ReducesTo [0, 1] S_

variable [Facts]

def fn_part1 {F : FTy → Type} [FloatOps F] (main_arg4 : FVec F S64x64 .f32) (main_arg5 : FVec F S3x64 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S3x64 .f32 := Host.absf main_arg5
  let main_cst_8 : FVec F S_ .f32 := constant S_ .f32 0x7F800000#32
  let main_v25 : FVec F S3x64 .f32 := broadcastInDim S3x64 ![] bcast_S_S3x64 main_cst_8
  let main_v26 : IVec S3x64 1 := cmpf .olt main_v24 main_v25
  let main_c_9 : IVec S_ 1 := constantI S_ 1 1#1
  let main_v27 : IVec S_ 1 := (fun x v => Host.reduce IntOp.andi x v reducesTo_S3x64_S_d0_1 h_S_) main_v26 main_c_9
  let main_v28 : IVec S_ 1 := andi main_v23 main_v27
  main_v28

def fn {F : FTy → Type} [FloatOps F] (main_arg0 : FVec F S2097152x48 .f32) (main_arg1 : FVec F S64x32 .f32) (main_arg2 : FVec F S16x64 .f32) (main_arg3 : FVec F S64x32 .f32) (main_arg4 : FVec F S64x64 .f32) (main_arg5 : FVec F S3x64 .f32) : IVec S_ 1 :=
  let main_v0 : FVec F S2097152x48 .f32 := Host.absf main_arg0
  let main_cst : FVec F S_ .f32 := constant S_ .f32 0x7F800000#32
  let main_v1 : FVec F S2097152x48 .f32 := broadcastInDim S2097152x48 ![] bcast_S_S2097152x48 main_cst
  let main_v2 : IVec S2097152x48 1 := cmpf .olt main_v0 main_v1
  let main_c : IVec S_ 1 := constantI S_ 1 1#1
  let main_v3 : IVec S_ 1 := (fun x v => Host.reduce IntOp.andi x v reducesTo_S2097152x48_S_d0_1 h_S_) main_v2 main_c
  let main_v4 : FVec F S64x32 .f32 := Host.absf main_arg1
  let main_cst_0 : FVec F S_ .f32 := constant S_ .f32 0x7F800000#32
  let main_v5 : FVec F S64x32 .f32 := broadcastInDim S64x32 ![] bcast_S_S64x32 main_cst_0
  let main_v6 : IVec S64x32 1 := cmpf .olt main_v4 main_v5
  let main_c_1 : IVec S_ 1 := constantI S_ 1 1#1
  let main_v7 : IVec S_ 1 := (fun x v => Host.reduce IntOp.andi x v reducesTo_S64x32_S_d0_1 h_S_) main_v6 main_c_1
  let main_v8 : IVec S_ 1 := andi main_v3 main_v7
  let main_v9 : FVec F S16x64 .f32 := Host.absf main_arg2
  let main_cst_2 : FVec F S_ .f32 := constant S_ .f32 0x7F800000#32
  let main_v10 : FVec F S16x64 .f32 := broadcastInDim S16x64 ![] bcast_S_S16x64 main_cst_2
  let main_v11 : IVec S16x64 1 := cmpf .olt main_v9 main_v10
  let main_c_3 : IVec S_ 1 := constantI S_ 1 1#1
  let main_v12 : IVec S_ 1 := (fun x v => Host.reduce IntOp.andi x v reducesTo_S16x64_S_d0_1 h_S_) main_v11 main_c_3
  let main_v13 : IVec S_ 1 := andi main_v8 main_v12
  let main_v14 : FVec F S64x32 .f32 := Host.absf main_arg3
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg4 main_arg5 main_v13 main_v16
-- ==== Kernel.lean ====
abbrev S2097152x48 : Shape := ⟨2, ![2097152, 48]⟩
abbrev S64x32 : Shape := ⟨2, ![64, 32]⟩
abbrev S16x64 : Shape := ⟨2, ![16, 64]⟩
abbrev S64x64 : Shape := ⟨2, ![64, 64]⟩
abbrev S3x64 : Shape := ⟨2, ![3, 64]⟩
abbrev S32x64 : Shape := ⟨2, ![32, 64]⟩
abbrev S64x16 : Shape := ⟨2, ![64, 16]⟩
abbrev S64x3 : Shape := ⟨2, ![64, 3]⟩
abbrev S2097152x4 : Shape := ⟨2, ![2097152, 4]⟩
abbrev S16384x48 : Shape := ⟨2, ![16384, 48]⟩
abbrev S16384x4 : Shape := ⟨2, ![16384, 4]⟩
abbrev S16384x16 : Shape := ⟨2, ![16384, 16]⟩
abbrev S16384x32 : Shape := ⟨2, ![16384, 32]⟩
abbrev S16384x64 : Shape := ⟨2, ![16384, 64]⟩
abbrev S16384x1 : Shape := ⟨2, ![16384, 1]⟩
abbrev S16384 : Shape := ⟨1, ![16384]⟩
abbrev S16384x3 : Shape := ⟨2, ![16384, 3]⟩

abbrev nBuf : Space → Nat
  | .hbm => 17
  | .vmem => 9
  | .smem => 0
  | _ => 0

abbrev bufTy : (tb : Table) → Fin (tcTables nBuf tb) → BufTy
  | .hbm, ⟨0, _⟩ => ⟨S2097152x48, .f32⟩
  | .hbm, ⟨1, _⟩ => ⟨S64x32, .f32⟩
  | .hbm, ⟨2, _⟩ => ⟨S16x64, .f32⟩
  | .hbm, ⟨3, _⟩ => ⟨S64x32, .f32⟩
  | .hbm, ⟨4, _⟩ => ⟨S64x64, .f32⟩
  | .hbm, ⟨5, _⟩ => ⟨S3x64, .f32⟩
  | .hbm, ⟨6, _⟩ => ⟨S32x64, .f32⟩
  | .hbm, ⟨7, _⟩ => ⟨S32x64, .bf16⟩
  | .hbm, ⟨8, _⟩ => ⟨S64x16, .f32⟩
  | .hbm, ⟨9, _⟩ => ⟨S64x16, .bf16⟩
  | .hbm, ⟨10, _⟩ => ⟨S32x64, .f32⟩
  | .hbm, ⟨11, _⟩ => ⟨S32x64, .bf16⟩
  | .hbm, ⟨12, _⟩ => ⟨S64x64, .f32⟩
  | .hbm, ⟨13, _⟩ => ⟨S64x64, .bf16⟩
  | .hbm, ⟨14, _⟩ => ⟨S64x3, .f32⟩
  | .hbm, ⟨15, _⟩ => ⟨S64x3, .bf16⟩
  | .hbm, ⟨16, _⟩ => ⟨S2097152x4, .f32⟩
  | .local _ .vmem, ⟨0, _⟩ => ⟨S16384x48, .f32⟩
  | .local _ .vmem, ⟨1, _⟩ => ⟨S16384x48, .f32⟩
  | .local _ .vmem, ⟨2, _⟩ => ⟨S32x64, .bf16⟩
  | .local _ .vmem, ⟨3, _⟩ => ⟨S64x16, .bf16⟩
  | .local _ .vmem, ⟨4, _⟩ => ⟨S32x64, .bf16⟩
  | .local _ .vmem, ⟨5, _⟩ => ⟨S64x64, .bf16⟩
  | .local _ .vmem, ⟨6, _⟩ => ⟨S64x3, .bf16⟩
  | .local _ .vmem, ⟨7, _⟩ => ⟨S16384x4, .f32⟩
  | .local _ .vmem, ⟨8, _⟩ => ⟨S16384x4, .f32⟩
  | _, _ => ⟨S2097152x48, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16384x48 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x16 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x3 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S16384x4 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  transposes_S64x32_S32x64_1_0 : S64x32.Transposes [1, 0] S32x64
  bitsLt_bf16_f32 : FTy.bits .bf16 < FTy.bits .f32
  transposes_S16x64_S64x16_1_0 : S16x64.Transposes [1, 0] S64x16
  transposes_S64x64_S64x64_1_0 : S64x64.Transposes [1, 0] S64x64
  transposes_S3x64_S64x3_1_0 : S3x64.Transposes [1, 0] S64x3
  inb_S16384x48_S16384x48_0_0 : ∀ a, (![0, 0] : Fin 2 → Nat) a + S16384x48.size a ≤ S16384x48.size a
  h_S16384x48 : 0 < S16384x48.numel
  slices_S16384x48_o0_0_S16384x16 : S16384x48.Slices ![0, 0] S16384x16
  slices_S16384x48_o0_16_S16384x32 : S16384x48.Slices ![0, 16] S16384x32
  inb_S32x64_S32x64_0_0 : ∀ a, (![0, 0] : Fin 2 → Nat) a + S32x64.size a ≤ S32x64.size a
  h_S32x64 : 0 < S32x64.numel
  shapeCasts_S32x64_S32x64 : S32x64.ShapeCasts S32x64
  inb_S64x16_S64x16_0_0 : ∀ a, (![0, 0] : Fin 2 → Nat) a + S64x16.size a ≤ S64x16.size a
  h_S64x16 : 0 < S64x16.numel
  shapeCasts_S64x16_S64x16 : S64x16.ShapeCasts S64x16
  slices_S16384x16_o0_0_S16384x1 : S16384x16.Slices ![0, 0] S16384x1
  shapeCasts_S16384x1_S16384 : S16384x1.ShapeCasts S16384
  concatenates_S16384x16_S16384x16_S16384x32_d1 : Shape.Concatenates [S16384x16, S16384x16] S16384x32 1
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64x3_S64x3_0_0 : ∀ a, (![0, 0] : Fin 2 → Nat) a + S64x3.size a ≤ S64x3.size a
  h_S64x3 : 0 < S64x3.numel
  shapeCasts_S64x3_S64x3 : S64x3.ShapeCasts S64x3
  inb_S16384x4_S16384x3_0_0 : ∀ a, (![0, 0] : Fin 2 → Nat) a + S16384x3.size a ≤ S16384x4.size a
  h_S16384x3 : 0 < S16384x3.numel
  shapeCasts_S16384_S16384x1 : S16384.ShapeCasts S16384x1
  inb_S16384x4_S16384x1_0_3 : ∀ a, (![0, 3] : Fin 2 → Nat) a + S16384x1.size a ≤ S16384x4.size a
  h_S16384x1 : 0 < S16384x1.numel
  dot_S16384x32_S32x64_S16384x64_1_0_0_1_n_n_wf : DotDims.WF S16384x32 S32x64 S16384x64 [1] [0] [0] [1] [] []
  dot_S16384x64_S64x16_S16384x16_1_0_0_1_n_n_wf : DotDims.WF S16384x64 S64x16 S16384x16 [1] [0] [0] [1] [] []
  dot_S16384x64_S64x64_S16384x64_1_0_0_1_n_n_wf : DotDims.WF S16384x64 S64x64 S16384x64 [1] [0] [0] [1] [] []
  dot_S16384x64_S64x3_S16384x3_1_0_0_1_n_n_wf : DotDims.WF S16384x64 S64x3 S16384x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x48.size a ≤ S2097152x48.size a
  hwx0_0 : ∀ i : grid0.Coords, EltTy.bits .f32 = 32 ∨ (Rect.block (s := S2097152x48) S16384x48.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x64.size a ≤ S32x64.size a
  hwx0_1 : ∀ i : grid0.Coords, EltTy.bits .bf16 = 32 ∨ (Rect.block (s := S32x64) S32x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x16.size a ≤ S64x16.size a
  hwx0_2 : ∀ i : grid0.Coords, EltTy.bits .bf16 = 32 ∨ (Rect.block (s := S64x16) S64x16.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x64.size a ≤ S32x64.size a
  hwx0_3 : ∀ i : grid0.Coords, EltTy.bits .bf16 = 32 ∨ (Rect.block (s := S32x64) S32x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .bf16 = 32 ∨ (Rect.block (s := S64x64) S64x64.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x3.size a ≤ S64x3.size a
  hwx0_5 : ∀ i : grid0.Coords, EltTy.bits .bf16 = 32 ∨ (Rect.block (s := S64x3) S64x3.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S16384x4.size a ≤ S2097152x4.size a
  hwx0_6 : ∀ i : grid0.Coords, EltTy.bits .f32 = 32 ∨ (Rect.block (s := S2097152x4) S16384x4.size (cc0_transform_6 i) (hinb0_6 i)).WholeWords (EltTy.packing .f32)

variable [Facts₀]

def dot_S16384x32_S32x64_S16384x64_1_0_0_1_n_n : DotDims S16384x32 S32x64 S16384x64 where
  lhsContracting := [1]
  rhsContracting := [0]
  lhsNonContracting := [0]
  rhsNonContracting := [1]
  lhsBatch := []
  rhsBatch := []
  wf := dot_S16384x32_S32x64_S16384x64_1_0_0_1_n_n_wf
def dot_S16384x64_S64x16_S16384x16_1_0_0_1_n_n : DotDims S16384x64 S64x16 S16384x16 where
  lhsContracting := [1]
  rhsContracting := [0]
  lhsNonContracting := [0]
  rhsNonContracting := [1]
  lhsBatch := []
  rhsBatch := []
  wf := dot_S16384x64_S64x16_S16384x16_1_0_0_1_n_n_wf
def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf
def dot_S16384x64_S64x3_S16384x3_1_0_0_1_n_n : DotDims S16384x64 S64x3 S16384x3 where
  lhsContracting := [1]
  rhsContracting := [0]
  lhsNonContracting := [0]
  rhsNonContracting := [1]
  lhsBatch := []
  rhsBatch := []
  wf := dot_S16384x64_S64x3_S16384x3_1_0_0_1_n_n_wf

abbrev win0_0 : Pipeline.Window sig grid0 :=
  Pipeline.Window.ofSpec (Memref.whole main_arg0) S16384x48.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S32x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S64x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S32x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S64x3.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S16384x4.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S2097152x48 : Shape := ⟨2, ![2097152, 48]⟩
abbrev S64x32 : Shape := ⟨2, ![64, 32]⟩
abbrev S16x64 : Shape := ⟨2, ![16, 64]⟩
abbrev S64x64 : Shape := ⟨2, ![64, 64]⟩
abbrev S3x64 : Shape := ⟨2, ![3, 64]⟩
abbrev S2097152x16 : Shape := ⟨2, ![2097152, 16]⟩
abbrev S2097152x32 : Shape := ⟨2, ![2097152, 32]⟩
abbrev S32x64 : Shape := ⟨2, ![32, 64]⟩
abbrev S2097152x64 : Shape := ⟨2, ![2097152, 64]⟩
abbrev S_ : Shape := ⟨0, ![]⟩
abbrev S64x16 : Shape := ⟨2, ![64, 16]⟩
abbrev S2097152x1 : Shape := ⟨2, ![2097152, 1]⟩
abbrev S2097152 : Shape := ⟨1, ![2097152]⟩
abbrev S64x3 : Shape := ⟨2, ![64, 3]⟩
abbrev S2097152x3 : Shape := ⟨2, ![2097152, 3]⟩
abbrev S2097152x4 : Shape := ⟨2, ![2097152, 4]⟩

abbrev nBuf : Space → Nat
  | .hbm => 41
  | .vmem => 0
  | .smem => 0
  | _ => 0

abbrev bufTy : (tb : Table) → Fin (tcTables nBuf tb) → BufTy
  | .hbm, ⟨0, _⟩ => ⟨S2097152x48, .f32⟩
  | .hbm, ⟨1, _⟩ => ⟨S64x32, .f32⟩
  | .hbm, ⟨2, _⟩ => ⟨S16x64, .f32⟩
  | .hbm, ⟨3, _⟩ => ⟨S64x32, .f32⟩
  | .hbm, ⟨4, _⟩ => ⟨S64x64, .f32⟩
  | .hbm, ⟨5, _⟩ => ⟨S3x64, .f32⟩
  | .hbm, ⟨6, _⟩ => ⟨S2097152x16, .f32⟩
  | .hbm, ⟨7, _⟩ => ⟨S2097152x32, .f32⟩
  | .hbm, ⟨8, _⟩ => ⟨S32x64, .f32⟩
  | .hbm, ⟨9, _⟩ => ⟨S2097152x64, .f32⟩
  | .hbm, ⟨10, _⟩ => ⟨S_, .f32⟩
  | .hbm, ⟨11, _⟩ => ⟨S2097152x64, .f32⟩
  | .hbm, ⟨12, _⟩ => ⟨S2097152x64, .f32⟩
  | .hbm, ⟨13, _⟩ => ⟨S64x16, .f32⟩
  | .hbm, ⟨14, _⟩ => ⟨S2097152x16, .f32⟩
  | .hbm, ⟨15, _⟩ => ⟨S2097152x1, .f32⟩
  | .hbm, ⟨16, _⟩ => ⟨S2097152, .f32⟩
  | .hbm, ⟨17, _⟩ => ⟨S2097152, .f32⟩
  | .hbm, ⟨18, _⟩ => ⟨S2097152x32, .f32⟩
  | .hbm, ⟨19, _⟩ => ⟨S32x64, .f32⟩
  | .hbm, ⟨20, _⟩ => ⟨S2097152x64, .f32⟩
  | .hbm, ⟨21, _⟩ => ⟨S_, .f32⟩
  | .hbm, ⟨22, _⟩ => ⟨S2097152x64, .f32⟩
  | .hbm, ⟨23, _⟩ => ⟨S2097152x64, .f32⟩
  | .hbm, ⟨24, _⟩ => ⟨S64x64, .f32⟩
  | .hbm, ⟨25, _⟩ => ⟨S2097152x64, .f32⟩
  | .hbm, ⟨26, _⟩ => ⟨S_, .f32⟩
  | .hbm, ⟨27, _⟩ => ⟨S2097152x64, .f32⟩
  | .hbm, ⟨28, _⟩ => ⟨S2097152x64, .f32⟩
  | .hbm, ⟨29, _⟩ => ⟨S64x3, .f32⟩
  | .hbm, ⟨30, _⟩ => ⟨S2097152x3, .f32⟩
  | .hbm, ⟨31, _⟩ => ⟨S2097152x3, .f32⟩
  | .hbm, ⟨32, _⟩ => ⟨S2097152x3, .f32⟩
  | .hbm, ⟨33, _⟩ => ⟨S_, .f32⟩
  | .hbm, ⟨34, _⟩ => ⟨S2097152x3, .f32⟩
  | .hbm, ⟨35, _⟩ => ⟨S2097152x3, .f32⟩
  | .hbm, ⟨36, _⟩ => ⟨S_, .f32⟩
  | .hbm, ⟨37, _⟩ => ⟨S2097152x3, .f32⟩
  | .hbm, ⟨38, _⟩ => ⟨S2097152x3, .f32⟩
  | .hbm, ⟨39, _⟩ => ⟨S2097152x1, .f32⟩
  | .hbm, ⟨40, _⟩ => ⟨S2097152x4, .f32⟩
  | _, _ => ⟨S2097152x48, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_cst : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_call1_cst : Ref sig .tc := ⟨.hbm, 21, rfl⟩
abbrev main_call1_v0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_call2_cst : Ref sig .tc := ⟨.hbm, 26, rfl⟩
abbrev main_call2_v0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst : Ref sig .tc := ⟨.hbm, 33, rfl⟩
abbrev main_v21 : Ref sig .tc := ⟨.hbm, 34, rfl⟩
abbrev main_v22 : Ref sig .tc := ⟨.hbm, 35, rfl⟩
abbrev main_cst_0 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]

class Facts₀ : Prop where
  slices_S2097152x48_S2097152x16_0_0 : S2097152x48.Slices ![0, 0] S2097152x16
  slices_S2097152x48_S2097152x32_0_16 : S2097152x48.Slices ![0, 16] S2097152x32
  transposes_S64x32_S32x64_1_0 : S64x32.Transposes [1, 0] S32x64
  bcast_S_S2097152x64 : S_.BroadcastsInDim S2097152x64 (![] : Fin 0 → Fin S2097152x64.rank)
  transposes_S16x64_S64x16_1_0 : S16x64.Transposes [1, 0] S64x16
  slices_S2097152x16_S2097152x1_0_0 : S2097152x16.Slices ![0, 0] S2097152x1
  shapeCasts_S2097152x1_S2097152 : S2097152x1.ShapeCasts S2097152
  concatenates_S2097152x16_S2097152x16_S2097152x32_d1 : Shape.Concatenates [S2097152x16, S2097152x16] S2097152x32 1
  transposes_S64x64_S64x64_1_0 : S64x64.Transposes [1, 0] S64x64
  transposes_S3x64_S64x3_1_0 : S3x64.Transposes [1, 0] S64x3
  bcast_S_S2097152x3 : S_.BroadcastsInDim S2097152x3 (![] : Fin 0 → Fin S2097152x3.rank)
  bcast_S2097152_S2097152x1_0 : S2097152.BroadcastsInDim S2097152x1 (![0] : Fin 1 → Fin S2097152x1.rank)
  concatenates_S2097152x3_S2097152x1_S2097152x4_d1 : Shape.Concatenates [S2097152x3, S2097152x1] S2097152x4 1
  dot_S2097152x32_S32x64_S2097152x64_1_0_0_1_n_n_wf : DotDims.WF S2097152x32 S32x64 S2097152x64 [1] [0] [0] [1] [] []
  dot_S2097152x64_S64x16_S2097152x16_1_0_0_1_n_n_wf : DotDims.WF S2097152x64 S64x16 S2097152x16 [1] [0] [0] [1] [] []
  dot_S2097152x64_S64x64_S2097152x64_1_0_0_1_n_n_wf : DotDims.WF S2097152x64 S64x64 S2097152x64 [1] [0] [0] [1] [] []
  dot_S2097152x64_S64x3_S2097152x3_1_0_0_1_n_n_wf : DotDims.WF S2097152x64 S64x3 S2097152x3 [1] [0] [0] [1] [] []

variable [Facts₀]

def dot_S2097152x32_S32x64_S2097152x64_1_0_0_1_n_n : DotDims S2097152x32 S32x64 S2097152x64 where
  lhsContracting := [1]
  rhsContracting := [0]
  lhsNonContracting := [0]
  rhsNonContracting := [1]
  lhsBatch := []
  rhsBatch := []
  wf := dot_S2097152x32_S32x64_S2097152x64_1_0_0_1_n_n_wf
def dot_S2097152x64_S64x16_S2097152x16_1_0_0_1_n_n : DotDims S2097152x64 S64x16 S2097152x16 where
  lhsContracting := [1]
  rhsContracting := [0]
  lhsNonContracting := [0]
  rhsNonContracting := [1]
  lhsBatch := []
  rhsBatch := []
  wf := dot_S2097152x64_S64x16_S2097152x16_1_0_0_1_n_n_wf
def dot_S2097152x64_S64x64_S2097152x64_1_0_0_1_n_n : DotDims S2097152x64 S64x64 S2097152x64 where
  lhsContracting := [1]
  rhsContracting := [0]
  lhsNonContracting := [0]
  rhsNonContracting := [1]
  lhsBatch := []
  rhsBatch := []
  wf := dot_S2097152x64_S64x64_S2097152x64_1_0_0_1_n_n_wf
def dot_S2097152x64_S64x3_S2097152x3_1_0_0_1_n_n : DotDims S2097152x64 S64x3 S2097152x3 where
  lhsContracting := [1]
  rhsContracting := [0]
  lhsNonContracting := [0]
  rhsNonContracting := [1]
  lhsBatch := []
  rhsBatch := []
  wf := dot_S2097152x64_S64x3_S2097152x3_1_0_0_1_n_n_wf

class Facts : Prop extends Facts₀ where

variable [Facts]
-- ==== Proof.LibPlainDot.lean ====
import Idealize.ShloMosaic.Lib.ValueIdx
import Idealize.ShloMosaic.Lib.Pipeline.Value
import Idealize.ShloMosaic.PureOps.Ideal.Laws

/-!
A plain matrix product `[M, K] × [K, N]` read at an index, on the extended reals: the kernel's `tpu.matmul` into a
zero accumulator and the host's `dot_general` are both `∑ k, x (p, k) · W (k, q)` at `(p, q)`, with the sum
over the literal `Fin K`. Stated for the dimension numbers `DotDims.plain M K N`, which every product of the two
programs has.
-/

noncomputable section

namespace Idealize.ShloMosaic.PlainDot

open Idealize.ShloMosaic Idealize.ShloMosaic.ValueIdx

variable {φ₁ φ₂ : FTy}

theorem lhs_row (M K N : Nat) (j : (⟨2, ![M, N]⟩ : Shape).Idx) (k : (DotDims.plain M K N).contr.Idx) :
    ((DotDims.plain M K N).lhsIdx j k 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

theorem rhs_col (M K N : Nat) (j : (⟨2, ![M, N]⟩ : Shape).Idx) (k : (DotDims.plain M K N).contr.Idx) :
    ((DotDims.plain M K N).rhsIdx j k 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The contraction sum of a plain product, over the literal `Fin K`. -/
theorem contr_sum (M K N : Nat) (x : (⟨2, ![M, K]⟩ : Shape).Idx → EReal) (W : (⟨2, ![K, N]⟩ : Shape).Idx → EReal)
    (p : Fin M) (q : Fin N) :
    ∑ k : (DotDims.plain M K N).contr.Idx,
        x ((DotDims.plain M K N).lhsIdx (ix2 p q) k) * W ((DotDims.plain M K N).rhsIdx (ix2 p q) k)
      = ∑ k : Fin K, x (ix2 p k) * W (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row M K N _ _
      | ⟨1, _⟩ => exact ((DotDims.plain M K N).lhsIdx_val_of_single rfl _ _).trans hk)
  have er : (DotDims.plain M K N).rhsIdx (ix2 p q) ((contrEquiv1 (DotDims.plain M K N) K rfl rfl).symm k) = ix2 k q :=
    funext fun a => Fin.ext (by
      match a with
      | ⟨0, _⟩ => exact ((DotDims.plain M K N).rhsIdx_val_of_single rfl _ _).trans hk
      | ⟨1, _⟩ => exact rhs_col M K N _ _)
  rw [el, er]

/-- A `tpu.matmul` into the zero accumulator, at `(p, q)`. -/
theorem matmul_zero_apply (M K N : Nat) (prec : Option ContractPrecision)
    (x : FVec Ideal ⟨2, ![M, K]⟩ φ₁) (W : FVec Ideal ⟨2, ![K, N]⟩ φ₂) (p : Fin M) (q : Fin N) :
    FloatOps.matmul (DotDims.plain M K N) prec x W (constant ⟨2, ![M, N]⟩ .f32 0x00000000#32) (ix2 p q)
      = ∑ k : Fin K, x (ix2 p k) * W (ix2 k q) := by
  rw [Ideal.matmul_constant_zero_apply]
  exact contr_sum M K N x W p q

/-- The host's `dot_general`, at `(p, q)`. -/
theorem dotGeneral_apply (M K N : Nat) (prec : Option ContractPrecision) (sched : HostSchedule)
    (x : FVec Ideal ⟨2, ![M, K]⟩ φ₁) (W : FVec Ideal ⟨2, ![K, N]⟩ φ₂) (p : Fin M) (q : Fin N) :
    FloatOps.dotGeneral (DotDims.plain M K N) prec sched x W (ix2 p q) = ∑ k : Fin K, x (ix2 p k) * W (ix2 k q) := by
  rw [Ideal.dotGeneral_apply]
  exact contr_sum M K N x W p q

end Idealize.ShloMosaic.PlainDot

end
-- ==== Proof.LibColumn.lean ====
import Idealize.ShloMosaic.Lib.ValueLayout

/-!
A column of per-row values read at an index: a vector `[a]` viewed as a one-column matrix `[a, 1]`, and a one-column
matrix `[a, 1]` repeated along its row to `[a, b]` — the two layout steps between a row reduction that keeps its
axis and the matrix it is then combined with. General in the extents.
-/

namespace Idealize.ShloMosaic.ValueIdx

open Idealize.ShloMosaic

variable {α : Type}

/-- An `[a]` vector cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Idealize.ShloMosaic.ValueIdx
-- ==== Proof.LibColumnVec.lean ====
import Idealize.ShloMosaic.Lib.ValueLayout
import Idealize.ShloMosaic.Lib.Pipeline.Value

/-!
A one-column matrix `[a, 1]` viewed as a vector `[a]`, read at an index: the layout step after slicing one column out
of a matrix and before an elementwise operation on the resulting vector. General in the extent. (The opposite cast,
`[a] → [a, 1]`, and the repetition of a column along its row are read the same way; this file adds the direction
that drops the unit axis at the END of the shape.)
-/

namespace Idealize.ShloMosaic.ValueIdx

open Idealize.ShloMosaic

variable {α : Type}

/-- An `[a, 1]` one-column matrix cast to `[a]` reads, at `i`, the matrix's entry of row `i` (column `0`). -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

end Idealize.ShloMosaic.ValueIdx
-- ==== Proof.Spec.lean ====
import Idealize.ShloMosaic.PureOps.Ideal.Laws
import Idealize.ShloMosaic.Lib.ValueIdx

/-!
The network both programs compute, one sample (one row of `x`) at a time, on the extended reals.

A row `xr` of 48 numbers splits into a direction (entries 0–15) and a position (entries 16–47).
* density net: `hid j = relu (∑ k, pos k · Ws0 j k)` (64 units), `feat q = ∑ j, hid j · Ws1 q j` (16 numbers);
  the density is `exp (feat 0)`.
* colour net: its input `cin` is the direction followed by `feat` (32 numbers);
  `col1 j = relu (∑ k, cin k · Wc0 j k)`, `col2 j = relu (∑ k, col1 k · Wc1 j k)`, `logit q = ∑ k, col2 k · Wc2 q k`;
  the colour is `logistic (logit q)`, `q < 3`.
The row's result is the three colours followed by the density. Every weight is used as `W out in`, the layout the
arguments have; no bias. `relu z = max z 0`, with `0` kept as the f32 zero word both programs spell it with.

The whole result array is this row function applied to every row of `x` (`whole`).
-/

noncomputable section

namespace Cert.Mlp

open Idealize.ShloMosaic Idealize.ShloMosaic.ValueIdx

/-- `max z 0`, the zero being the f32 word `0x00000000`. -/
def relu (z : EReal) : EReal := max z (Ideal.ofBits .f32 0x00000000#32)

section Row

variable (xr : Fin 48 → EReal)
  (Ws0 : Fin 64 → Fin 32 → EReal) (Ws1 : Fin 16 → Fin 64 → EReal)
  (Wc0 : Fin 64 → Fin 32 → EReal) (Wc1 : Fin 64 → Fin 64 → EReal) (Wc2 : Fin 3 → Fin 64 → EReal)

/-- The direction: entries 0–15 of the row. -/
def dir (k : Fin 16) : EReal := xr ⟨k.val, by have := k.isLt; omega⟩
/-- The position: entries 16–47 of the row. -/
def pos (k : Fin 32) : EReal := xr ⟨16 + k.val, by have := k.isLt; omega⟩
/-- The density net's hidden layer. -/
def hid (j : Fin 64) : EReal := relu (∑ k : Fin 32, pos xr k * Ws0 j k)
/-- The density net's output, 16 numbers: entry 0 is the log-density, all 16 feed the colour net. -/
def feat (q : Fin 16) : EReal := ∑ j : Fin 64, hid xr Ws0 j * Ws1 q j
/-- The colour net's input: the direction, then the density net's output. -/
def cin (k : Fin 32) : EReal :=
  if h : k.val < 16 then dir xr ⟨k.val, h⟩ else feat xr Ws0 Ws1 ⟨k.val - 16, by have := k.isLt; omega⟩
/-- The colour net's first hidden layer. -/
def col1 (j : Fin 64) : EReal := relu (∑ k : Fin 32, cin xr Ws0 Ws1 k * Wc0 j k)
/-- The colour net's second hidden layer. -/
def col2 (j : Fin 64) : EReal := relu (∑ k : Fin 64, col1 xr Ws0 Ws1 Wc0 k * Wc1 j k)
/-- The colour logits. -/
def logit (q : Fin 3) : EReal := ∑ k : Fin 64, col2 xr Ws0 Ws1 Wc0 Wc1 k * Wc2 q k
/-- The density: `exp` of the density net's entry 0. -/
def sigma : EReal := Ideal.exp (feat xr Ws0 Ws1 ⟨0, by omega⟩)
/-- The row's result: three colours, then the density. -/
def out (c : Fin 4) : EReal :=
  if h : c.val < 3 then Ideal.logistic (logit xr Ws0 Ws1 Wc0 Wc1 Wc2 ⟨c.val, h⟩) else sigma xr Ws0 Ws1

end Row

/-- Row `r` of a two-axis array with 48 columns. -/
def rowOf {R : Nat} (x : (⟨2, ![R, 48]⟩ : Shape).Idx → EReal) (r : Fin R) : Fin 48 → EReal := fun k => x (ix2 r k)
/-- A two-axis array as a function of its two coordinates. -/
def mat {A B : Nat} (w : (⟨2, ![A, B]⟩ : Shape).Idx → EReal) : Fin A → Fin B → EReal := fun a b => w (ix2 a b)
/-- The same with the coordinates exchanged: the transposed array's entries. -/
def matT {A B : Nat} (w : (⟨2, ![A, B]⟩ : Shape).Idx → EReal) : Fin B → Fin A → EReal := fun b a => w (ix2 a b)

/-- THE RESULT ARRAY: the row function on every row of `x`, with the weights in the arguments' own layout. -/
def whole {R : Nat} (x : (⟨2, ![R, 48]⟩ : Shape).Idx → EReal)
    (W_s0 : (⟨2, ![64, 32]⟩ : Shape).Idx → EReal) (W_s1 : (⟨2, ![16, 64]⟩ : Shape).Idx → EReal)
    (W_c0 : (⟨2, ![64, 32]⟩ : Shape).Idx → EReal) (W_c1 : (⟨2, ![64, 64]⟩ : Shape).Idx → EReal)
    (W_c2 : (⟨2, ![3, 64]⟩ : Shape).Idx → EReal) : (⟨2, ![R, 4]⟩ : Shape).Idx → EReal :=
  fun i => out (rowOf x (i 0)) (mat W_s0) (mat W_s1) (mat W_c0) (mat W_c1) (mat W_c2) (i 1)

end Cert.Mlp

end
-- ==== Proof.KernelRows.lean ====
import proofs.«181616_j38723425141338_2_alg».proof.Proof.Gen.KernelIdeal.Skeleton
import proofs.«181616_j38723425141338_2_alg».proof.Proof.LibPlainDot
import proofs.«181616_j38723425141338_2_alg».proof.Proof.LibColumn
import proofs.«181616_j38723425141338_2_alg».proof.Proof.LibColumnVec
import proofs.«181616_j38723425141338_2_alg».proof.Proof.Spec
import Idealize.ShloMosaic.Lib.Pipeline.Value
import Idealize.ShloMosaic.Lib.ValueIdx
import Idealize.ShloMosaic.Lib.ValueLayout

noncomputable section

/-!
The body of the kernel at one block of 16384 rows, read entry by entry: each of its three payloads — the density
net's 16 outputs, the three colours, the density column — is the row function of `Cert.Mlp` on the block's row,
with every weight block used transposed (`matT`: the kernel is handed `Wᵀ`, entry `(in, out)`).
A product into a zero accumulator is the plain sum over the contracted axis, `max · 0` after it is `relu`,
a change of float format is the identity, and a concatenation along the columns picks the piece by the column.
-/

namespace Cert.KernelIdeal.Rows

open Cert.KernelIdeal Cert.KernelIdeal.Gen Idealize.ShloMosaic Idealize.ShloMosaic.ValueIdx Cert.Mlp

/-! ## One layer, read at an entry -/

section Layers

variable {φ₁ φ₂ : FTy}

/-- A product into the zero accumulator whose factors are known along row `p` and column `q`. -/
theorem dense_of (M K N : Nat) (a : FVec Ideal ⟨2, ![M, K]⟩ φ₁) (w : FVec Ideal ⟨2, ![K, N]⟩ φ₂) (p : Fin M) (q : Fin N)
    (A W : Fin K → EReal) (ha : ∀ k, a (ix2 p k) = A k) (hw : ∀ k, w (ix2 k q) = W k) :
    FloatOps.matmul (DotDims.plain M K N) none a w (constant ⟨2, ![M, N]⟩ .f32 0x00000000#32) (ix2 p q)
      = ∑ k : Fin K, A k * W k := by
  rw [PlainDot.matmul_zero_apply]
  exact Finset.sum_congr rfl fun k _ => by rw [ha k, hw k]

/-- The same followed by the maximum with the zero splat: a `relu` layer. -/
theorem relu_dense_of (M K N : Nat) (a : FVec Ideal ⟨2, ![M, K]⟩ φ₁) (w : FVec Ideal ⟨2, ![K, N]⟩ φ₂) (p : Fin M) (q : Fin N)
    (A W : Fin K → EReal) (ha : ∀ k, a (ix2 p k) = A k) (hw : ∀ k, w (ix2 k q) = W k) :
    maximumf (FloatOps.matmul (DotDims.plain M K N) none a w (constant ⟨2, ![M, N]⟩ .f32 0x00000000#32))
        (broadcast ⟨2, ![M, N]⟩ (FloatOps.ofBits (F := Ideal) .f32 0x00000000#32)) (ix2 p q)
      = relu (∑ k : Fin K, A k * W k) := by
  show max _ _ = _
  rw [dense_of M K N a w p q A W ha hw]
  rfl

/-- Two blocks of 16 columns laid side by side, read at column `k` of the 32. -/
theorem concat_cols (A B : FVec Ideal S16384x16 .f32) (p : Fin 16384) (k : Fin 32) :
    concatenate S16384x32 1 [⟨S16384x16, A⟩, ⟨S16384x16, B⟩] concatenates_S16384x16_S16384x16_S16384x32_d1 (ix2 p k)
      = if h : k.val < 16 then A (ix2 p ⟨k.val, h⟩) else B (ix2 p ⟨k.val - 16, by have := k.isLt; omega⟩) := by
  by_cases h : k.val < 16
  · rw [dif_pos h]
    exact concatenate_pair_apply_left 1 A B _ (ix2 p k) rfl (ix2 p ⟨k.val, h⟩) (fun b => match b with
      | ⟨0, _⟩ => rfl
      | ⟨1, _⟩ => rfl)
  · rw [dif_neg h]
    exact concatenate_pair_apply_right 1 A B _ (ix2 p k) rfl rfl (ix2 p ⟨k.val - 16, by have := k.isLt; omega⟩)
      (fun b => match b with
        | ⟨0, _⟩ => fun _ => rfl
        | ⟨1, _⟩ => fun hb => absurd rfl hb)
      (by show (k.val - 16) + 16 = k.val; omega)

end Layers

/-! ## The payloads -/

variable (x0 : Vec Ideal S16384x48 .f32) (x1 : Vec Ideal S32x64 .bf16) (x2 : Vec Ideal S64x16 .bf16)
  (x3 : Vec Ideal S32x64 .bf16) (x4 : Vec Ideal S64x64 .bf16) (x5 : Vec Ideal S64x3 .bf16)

/-- Columns 16–47 of the block's row `p` are the row's position. -/
theorem slice_pos (p : Fin 16384) (k : Fin 32) :
    extractStridedSlice S16384x32 ![0, 16] x0 slices_S16384x48_o0_16_S16384x32 (ix2 p k) = pos (rowOf x0 p) k :=
  extractStridedSlice_apply ![0, 16] x0 _ (ix2 p k) (ix2 p ⟨16 + k.val, by have := k.isLt; omega⟩) (fun a => match a with
    | ⟨0, _⟩ => by show p.val = 0 + p.val; omega
    | ⟨1, _⟩ => rfl)

/-- Columns 0–15 are its direction. -/
theorem slice_dir (p : Fin 16384) (k : Fin 16) :
    extractStridedSlice S16384x16 ![0, 0] x0 slices_S16384x48_o0_0_S16384x16 (ix2 p k) = dir (rowOf x0 p) k :=
  extractStridedSlice_apply ![0, 0] x0 _ (ix2 p k) (ix2 p ⟨k.val, by have := k.isLt; omega⟩) (fun a => match a with
    | ⟨0, _⟩ => by show p.val = 0 + p.val; omega
    | ⟨1, _⟩ => by show k.val = 0 + k.val; omega)

/-- THE DENSITY NET: the first payload at `(p, q)` is `feat` of row `p`. -/
theorem pay1_apply (p : Fin 16384) (q : Fin 16) :
    k0_pay1 (F := Ideal) x0 x1 x2 (ix2 p q) = feat (rowOf x0 p) (matT x1) (matT x2) q := by
  unfold k0_pay1
  exact dense_of 16384 64 16 _ _ p q (fun j => hid (rowOf x0 p) (matT x1) j) (fun j => matT x2 q j)
    (fun j => relu_dense_of 16384 32 64 _ _ p j (fun k => pos (rowOf x0 p) k) (fun k => matT x1 j k)
      (fun k => slice_pos x0 p k) (fun k => congrFun (shapeCast_self x1 _) (ix2 k j)))
    (fun j => congrFun (shapeCast_self x2 _) (ix2 j q))

/-- The colour net's input at `(p, k)`: the direction, then the density net's output. -/
theorem cin_apply (p : Fin 16384) (k : Fin 32) :
    concatenate S16384x32 1 [⟨S16384x16, extractStridedSlice S16384x16 ![0, 0] x0 slices_S16384x48_o0_0_S16384x16⟩,
        ⟨S16384x16, k0_pay1 (F := Ideal) x0 x1 x2⟩] concatenates_S16384x16_S16384x16_S16384x32_d1 (ix2 p k)
      = cin (rowOf x0 p) (matT x1) (matT x2) k := by
  rw [concat_cols]
  unfold cin
  by_cases h : k.val < 16
  · rw [dif_pos h, dif_pos h, slice_dir]
  · rw [dif_neg h, dif_neg h, pay1_apply]

/-- THE COLOUR NET: the second payload at `(p, q)` is the logistic of `logit` of row `p`. -/
theorem pay2_apply (p : Fin 16384) (q : Fin 3) :
    k0_pay2 (F := Ideal) x0 x1 x2 x3 x4 x5 (ix2 p q)
      = Ideal.logistic (logit (rowOf x0 p) (matT x1) (matT x2) (matT x3) (matT x4) (matT x5) q) := by
  unfold k0_pay2
  show Ideal.logistic _ = _
  refine congrArg Ideal.logistic ?_
  exact dense_of 16384 64 3 _ _ p q (fun j => col2 (rowOf x0 p) (matT x1) (matT x2) (matT x3) (matT x4) j) (fun j => matT x5 q j)
    (fun j => relu_dense_of 16384 64 64 _ _ p j (fun k => col1 (rowOf x0 p) (matT x1) (matT x2) (matT x3) k) (fun k => matT x4 j k)
      (fun k => relu_dense_of 16384 32 64 _ _ p k (fun i => cin (rowOf x0 p) (matT x1) (matT x2) i) (fun i => matT x3 k i)
        (fun i => cin_apply x0 x1 x2 p i) (fun i => congrFun (shapeCast_self x3 _) (ix2 i k)))
      (fun k => congrFun (shapeCast_self x4 _) (ix2 k j)))
    (fun j => congrFun (shapeCast_self x5 _) (ix2 j q))

/-- THE DENSITY: the third payload, a one-column block, holds `exp` of the density net's entry 0 of row `p`. -/
theorem pay3_apply (p : Fin 16384) (u : Fin 1) :
    k0_pay3 (F := Ideal) x0 x1 x2 (ix2 p u) = sigma (rowOf x0 p) (matT x1) (matT x2) := by
  unfold k0_pay3
  rw [shapeCast_a_a1_apply]
  show Ideal.exp _ = _
  unfold sigma
  refine congrArg Ideal.exp ?_
  rw [shapeCast_a1_a_apply]
  refine (extractStridedSlice_apply ![0, 0] (k0_pay1 (F := Ideal) x0 x1 x2) _ (ix2 p (0 : Fin 1)) (ix2 p (⟨0, by omega⟩ : Fin 16)) (fun a => match a with
    | ⟨0, _⟩ => by show p.val = 0 + p.val; omega
    | ⟨1, _⟩ => rfl)).trans ?_
  exact pay1_apply x0 x1 x2 p _

end Cert.KernelIdeal.Rows

end
-- ==== Proof.KernelBlock.lean ====
import proofs.«181616_j38723425141338_2_alg».proof.Proof.Gen.KernelIdeal.Value
import proofs.«181616_j38723425141338_2_alg».proof.Proof.KernelRows
import Idealize.ShloMosaic.Lib.StableHlo.Run
import Idealize.ShloMosaic.Lib.Pipeline.Value
import Idealize.ShloMosaic.Lib.ValueIdx

set_option maxRecDepth 16384

noncomputable section

/-!
From one block to the whole array, for the idealized kernel.

At grid point `t` the body stores two rectangles into the output block of 16384 rows: columns 0–2 (the colours) and
column 3 (the density). Both are restrictions of ONE function of the block index — the row function of `Cert.Mlp` on
the block's row — and together they cover the block, so the block ends at that function whatever it held before.
The input block is rows `16384 t … 16384 t + 16383` of `x`; each weight block is the whole transposed weight, which
the host operations before the call prepared from the argument (a transpose, then a change of float format, the
identity on extended reals). So point `t` writes back rows `16384 t …` of `Cert.Mlp.whole` of the arguments; the 128
blocks tile the 2097152 rows, hence the result array is `whole` of the arguments.
-/

namespace Cert.KernelIdeal.Block

open Cert.KernelIdeal Cert.KernelIdeal.Gen Idealize.ShloMosaic Idealize.ShloMosaic.TcCoe Idealize.ShloMosaic.ValueIdx Idealize.ShloMosaic.Tactic
open Idealize.SL.Sem Cert.Mlp Cert.KernelIdeal.Rows
open Idealize.ShloMosaic.Pipeline (Dat)

theorem hz : (![0, 0] : Fin 2 → Nat) = fun _ => 0 := funext fun a => by fin_cases a <;> rfl

/-! ## What the body's two stores leave -/

section Pieces
variable {F : FTy → Type} [FloatOps F]

/-- The run's pieces, last store first: the density column, then the three colour columns, each the payload of
    the block's loaded values. -/
theorem pieces_eq (c : Dev nD) (i : grid0.Coords) (arg1 : Memref sig .tc .vmem S16384x48 .f32) (harg1 : arg1.IsWhole) (arg2 : Memref sig .tc .vmem S32x64 .bf16) (harg2 : arg2.IsWhole) (arg3 : Memref sig .tc .vmem S64x16 .bf16) (harg3 : arg3.IsWhole) (arg4 : Memref sig .tc .vmem S32x64 .bf16) (harg4 : arg4.IsWhole) (arg5 : Memref sig .tc .vmem S64x64 .bf16) (harg5 : arg5.IsWhole) (arg6 : Memref sig .tc .vmem S64x3 .bf16) (harg6 : arg6.IsWhole) (arg7 : Memref sig .tc .vmem S16384x4 .f32) (harg7 : arg7.IsWhole)
    (x0 : Vec F S16384x48 .f32) (x1 : Vec F S32x64 .bf16) (x2 : Vec F S64x16 .bf16) (x3 : Vec F S32x64 .bf16) (x4 : Vec F S64x64 .bf16) (x5 : Vec F S64x3 .bf16) :
    (kernelRun0_A c i arg1 harg1 arg2 harg2 arg3 harg3 arg4 harg4 arg5 harg5 arg6 harg6 arg7 harg7 x0 x1 x2 x3 x4 x5).1
      = [⟨Rect.unit (s := S16384x4) ![0, 3] S16384x1.size inb_S16384x4_S16384x1_0_3, k0_pay3 x0 x1 x2⟩,
         ⟨Rect.unit (s := S16384x4) ![0, 0] S16384x3.size inb_S16384x4_S16384x3_0_0, k0_pay2 x0 x1 x2 x3 x4 x5⟩] := by
  unfold kernelRun0_A
  dsimp only
  sl_unfold_words
  simp only [View.readAt_eq_ld, harg1.read_unread, harg2.read_unread, harg3.read_unread, harg4.read_unread, harg5.read_unread, harg6.read_unread,
    View.ld_unit_zero (S := S16384x48) hz, View.ld_unit_zero (S := S32x64) hz, View.ld_unit_zero (S := S64x16) hz, View.ld_unit_zero (S := S64x64) hz, View.ld_unit_zero (S := S64x3) hz]

end Pieces

/-- The block after the body, at `(p, cc)`: the row function on row `p` of the input block, the weight blocks
    transposed. -/
theorem block_apply (c : Dev nD) (i : grid0.Coords) (arg1 : Memref sig .tc .vmem S16384x48 .f32) (harg1 : arg1.IsWhole) (arg2 : Memref sig .tc .vmem S32x64 .bf16) (harg2 : arg2.IsWhole) (arg3 : Memref sig .tc .vmem S64x16 .bf16) (harg3 : arg3.IsWhole) (arg4 : Memref sig .tc .vmem S32x64 .bf16) (harg4 : arg4.IsWhole) (arg5 : Memref sig .tc .vmem S64x64 .bf16) (harg5 : arg5.IsWhole) (arg6 : Memref sig .tc .vmem S64x3 .bf16) (harg6 : arg6.IsWhole) (arg7 : Memref sig .tc .vmem S16384x4 .f32) (harg7 : arg7.IsWhole) (x0 : Vec Ideal S16384x48 .f32) (x1 : Vec Ideal S32x64 .bf16) (x2 : Vec Ideal S64x16 .bf16) (x3 : Vec Ideal S32x64 .bf16) (x4 : Vec Ideal S64x64 .bf16) (x5 : Vec Ideal S64x3 .bf16) (p : Fin 16384) (cc : Fin 4) :
    out0_A_6 (F := Ideal) c i arg1 harg1 arg2 harg2 arg3 harg3 arg4 harg4 arg5 harg5 arg6 harg6 arg7 harg7 x0 x1 x2 x3 x4 x5 (ix2 p cc)
      = out (rowOf x0 p) (matT x1) (matT x2) (matT x3) (matT x4) (matT x5) cc := by
  unfold out0_A_6
  refine View.read_writes_apply_of_pieces VO0_6 _
    (fun y : S16384x4.Idx => out (rowOf x0 (y 0)) (matT x1) (matT x2) (matT x3) (matT x4) (matT x5) (y 1)) _ ?_ (ix2 p cc)
    (cover0_A_6 c i arg1 harg1 arg2 harg2 arg3 harg3 arg4 harg4 arg5 harg5 arg6 harg6 arg7 harg7 x0 x1 x2 x3 x4 x5 (ix2 p cc))
  rw [pieces_eq]
  intro pc hpc x
  simp only [List.mem_cons, List.not_mem_nil, or_false] at hpc
  rcases hpc with rfl | rfl
  · obtain ⟨u, v, rfl⟩ : ∃ (u : Fin 16384) (v : Fin 1), x = ix2 u v := ⟨x 0, x 1, eq_ix2 x⟩
    have hv : v.val = 0 := by have := v.isLt; omega
    show k0_pay3 (F := Ideal) x0 x1 x2 (ix2 u v) = out (rowOf x0 ⟨0 + 1 * u.val, _⟩) (matT x1) (matT x2) (matT x3) (matT x4) (matT x5) ⟨3 + 1 * v.val, _⟩
    rw [pay3_apply]
    unfold out
    rw [dif_neg (by show ¬ (3 + 1 * v.val < 3); omega)]
    exact congrArg (fun r => sigma (rowOf x0 r) (matT x1) (matT x2)) (Fin.ext (by show u.val = 0 + 1 * u.val; omega))
  · obtain ⟨u, v, rfl⟩ : ∃ (u : Fin 16384) (v : Fin 3), x = ix2 u v := ⟨x 0, x 1, eq_ix2 x⟩
    show k0_pay2 (F := Ideal) x0 x1 x2 x3 x4 x5 (ix2 u v) = out (rowOf x0 ⟨0 + 1 * u.val, _⟩) (matT x1) (matT x2) (matT x3) (matT x4) (matT x5) ⟨0 + 1 * v.val, _⟩
    rw [pay2_apply]
    unfold out
    rw [dif_pos (by show 0 + 1 * v.val < 3; have := v.isLt; omega)]
    have er : (⟨0 + 1 * u.val, by have := u.isLt; omega⟩ : Fin 16384) = u := Fin.ext (by show 0 + 1 * u.val = u.val; omega)
    have ev : (⟨0 + 1 * v.val, by have := v.isLt; omega⟩ : Fin 3) = v := Fin.ext (by show 0 + 1 * v.val = v.val; omega)
    exact (congrArg₂ (fun r q => Ideal.logistic (logit (rowOf x0 r) (matT x1) (matT x2) (matT x3) (matT x4) (matT x5) q)) er ev).symm

/-- The same with the block's rows and the weights NAMED by what they are at the entries the row function reads. -/
theorem block_apply_of (c : Dev nD) (i : grid0.Coords) (arg1 : Memref sig .tc .vmem S16384x48 .f32) (harg1 : arg1.IsWhole) (arg2 : Memref sig .tc .vmem S32x64 .bf16) (harg2 : arg2.IsWhole) (arg3 : Memref sig .tc .vmem S64x16 .bf16) (harg3 : arg3.IsWhole) (arg4 : Memref sig .tc .vmem S32x64 .bf16) (harg4 : arg4.IsWhole) (arg5 : Memref sig .tc .vmem S64x64 .bf16) (harg5 : arg5.IsWhole) (arg6 : Memref sig .tc .vmem S64x3 .bf16) (harg6 : arg6.IsWhole) (arg7 : Memref sig .tc .vmem S16384x4 .f32) (harg7 : arg7.IsWhole) (x0 : Vec Ideal S16384x48 .f32) (x1 : Vec Ideal S32x64 .bf16) (x2 : Vec Ideal S64x16 .bf16) (x3 : Vec Ideal S32x64 .bf16) (x4 : Vec Ideal S64x64 .bf16) (x5 : Vec Ideal S64x3 .bf16) (p : Fin 16384) (cc : Fin 4)
    (xr : Fin 48 → EReal) (Ws0 : Fin 64 → Fin 32 → EReal) (Ws1 : Fin 16 → Fin 64 → EReal)
    (Wc0 : Fin 64 → Fin 32 → EReal) (Wc1 : Fin 64 → Fin 64 → EReal) (Wc2 : Fin 3 → Fin 64 → EReal)
    (h0 : ∀ k, x0 (ix2 p k) = xr k) (h1 : ∀ j k, x1 (ix2 k j) = Ws0 j k) (h2 : ∀ j k, x2 (ix2 k j) = Ws1 j k)
    (h3 : ∀ j k, x3 (ix2 k j) = Wc0 j k) (h4 : ∀ j k, x4 (ix2 k j) = Wc1 j k) (h5 : ∀ j k, x5 (ix2 k j) = Wc2 j k) :
    out0_A_6 (F := Ideal) c i arg1 harg1 arg2 harg2 arg3 harg3 arg4 harg4 arg5 harg5 arg6 harg6 arg7 harg7 x0 x1 x2 x3 x4 x5 (ix2 p cc) = out xr Ws0 Ws1 Wc0 Wc1 Wc2 cc := by
  have e0 : rowOf x0 p = xr := funext h0
  have e1 : matT x1 = Ws0 := funext fun j => funext fun k => h1 j k
  have e2 : matT x2 = Ws1 := funext fun j => funext fun k => h2 j k
  have e3 : matT x3 = Wc0 := funext fun j => funext fun k => h3 j k
  have e4 : matT x4 = Wc1 := funext fun j => funext fun k => h4 j k
  have e5 : matT x5 = Wc2 := funext fun j => funext fun k => h5 j k
  rw [block_apply, e0, e1, e2, e3, e4, e5]

/-! ## The arrays the region finds -/

variable (m : (ℓ : Loc nD τ sig) → Buf (Elt Ideal) ℓ) (ρ : Dev nD → PrngReg)

/-- THE RESULT: the network on every row of the argument `x`, with the argument weights. -/
abbrev result (c : Dev nD) : S2097152x4.Idx → EReal :=
  whole (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The first weight as the region finds it: the argument transposed (the format change is the identity). -/
theorem V_v1 (c : Dev nD) (k : Fin 32) (j : Fin 64) :
    V m c main_v1 (ix2 k j) = m ((c : Thread nD τ).loc main_arg1) (ix2 j k) := by
  have e : (V m c main_v1 : S32x64.Idx → EReal) = truncf (F := Ideal) .bf16 (transpose S32x64 [1, 0] (m ((c : Thread nD τ).loc main_arg1)) transposes_S64x32_S32x64_1_0) bitsLt_bf16_f32 := by
    dsimp only [V, hostOps0]; after_results
  rw [e]
  exact transpose_apply [1, 0] _ _ (ix2 k j) (ix2 j k) (fun b => match b with | ⟨0, _⟩ => rfl | ⟨1, _⟩ => rfl)

theorem V_v3 (c : Dev nD) (k : Fin 64) (j : Fin 16) :
    V m c main_v3 (ix2 k j) = m ((c : Thread nD τ).loc main_arg2) (ix2 j k) := by
  have e : (V m c main_v3 : S64x16.Idx → EReal) = truncf (F := Ideal) .bf16 (transpose S64x16 [1, 0] (m ((c : Thread nD τ).loc main_arg2)) transposes_S16x64_S64x16_1_0) bitsLt_bf16_f32 := by
    dsimp only [V, hostOps0]; after_results
  rw [e]
  exact transpose_apply [1, 0] _ _ (ix2 k j) (ix2 j k) (fun b => match b with | ⟨0, _⟩ => rfl | ⟨1, _⟩ => rfl)

theorem V_v5 (c : Dev nD) (k : Fin 32) (j : Fin 64) :
    V m c main_v5 (ix2 k j) = m ((c : Thread nD τ).loc main_arg3) (ix2 j k) := by
  have e : (V m c main_v5 : S32x64.Idx → EReal) = truncf (F := Ideal) .bf16 (transpose S32x64 [1, 0] (m ((c : Thread nD τ).loc main_arg3)) transposes_S64x32_S32x64_1_0) bitsLt_bf16_f32 := by
    dsimp only [V, hostOps0]; after_results
  rw [e]
  exact transpose_apply [1, 0] _ _ (ix2 k j) (ix2 j k) (fun b => match b with | ⟨0, _⟩ => rfl | ⟨1, _⟩ => rfl)

theorem V_v7 (c : Dev nD) (k : Fin 64) (j : Fin 64) :
    V m c main_v7 (ix2 k j) = m ((c : Thread nD τ).loc main_arg4) (ix2 j k) := by
  have e : (V m c main_v7 : S64x64.Idx → EReal) = truncf (F := Ideal) .bf16 (transpose S64x64 [1, 0] (m ((c : Thread nD τ).loc main_arg4)) transposes_S64x64_S64x64_1_0) bitsLt_bf16_f32 := by
    dsimp only [V, hostOps0]; after_results
  rw [e]
  exact transpose_apply [1, 0] _ _ (ix2 k j) (ix2 j k) (fun b => match b with | ⟨0, _⟩ => rfl | ⟨1, _⟩ => rfl)

theorem V_v9 (c : Dev nD) (k : Fin 64) (j : Fin 3) :
    V m c main_v9 (ix2 k j) = m ((c : Thread nD τ).loc main_arg5) (ix2 j k) := by
  have e : (V m c main_v9 : S64x3.Idx → EReal) = truncf (F := Ideal) .bf16 (transpose S64x3 [1, 0] (m ((c : Thread nD τ).loc main_arg5)) transposes_S3x64_S64x3_1_0) bitsLt_bf16_f32 := by
    dsimp only [V, hostOps0]; after_results
  rw [e]
  exact transpose_apply [1, 0] _ _ (ix2 k j) (ix2 j k) (fun b => match b with | ⟨0, _⟩ => rfl | ⟨1, _⟩ => rfl)

/-! ## The blocks at a grid point -/

/-- The printed index maps over the 128 points: `x`'s and the result's block index is the point, every weight's is
    zero. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row `p` of block `t` is row `16384 t + p` of the array. -/
def rowAt (t : Fin cfg0.N) (p : Fin 16384) : Fin 2097152 :=
  ⟨t.val * 16384 + p.val, by have h : t.val < 128 := Nat.lt_of_lt_of_eq t.isLt N_0; have := p.isLt; omega⟩

theorem iblk0_apply (c : Dev nD) (t : Fin cfg0.N) (p : Fin 16384) (k : Fin 48) :
    iblk m c 0 t (ix2 p k) = m ((c : Thread nD τ).loc main_arg0) (ix2 (rowAt t p) k) := by
  obtain ⟨e00, e01, e10, e11, e20, e21, e30, e31, e40, e41, e50, e51, e60, e61⟩ := idx_facts t
  show V m c main_arg0 (((cfg0.win 0).blk t).view.emb (ix2 p k)) = _
  rw [V_main_arg0]
  refine congrArg _ (funext fun d => Fin.ext ?_)
  match d with
  | ⟨0, _⟩ => show win0_0.index t (0 : Fin 2) * 16384 + 1 * p.val = t.val * 16384 + p.val; omega
  | ⟨1, _⟩ => show win0_0.index t (1 : Fin 2) * 48 + 1 * k.val = k.val; omega

theorem iblk1_apply (c : Dev nD) (t : Fin cfg0.N) (j : Fin 64) (k : Fin 32) :
    iblk m c 1 t (ix2 k j) = m ((c : Thread nD τ).loc main_arg1) (ix2 j k) := by
  obtain ⟨e00, e01, e10, e11, e20, e21, e30, e31, e40, e41, e50, e51, e60, e61⟩ := idx_facts t
  show V m c main_v1 (((cfg0.win 1).blk t).view.emb (ix2 k j)) = _
  have he : ((cfg0.win 1).blk t).view.emb (ix2 k j) = ix2 k j := funext fun d => Fin.ext (by
    match d with
    | ⟨0, _⟩ => show win0_1.index t (0 : Fin 2) * 32 + 1 * k.val = k.val; omega
    | ⟨1, _⟩ => show win0_1.index t (1 : Fin 2) * 64 + 1 * j.val = j.val; omega)
  rw [he, V_v1]

theorem iblk2_apply (c : Dev nD) (t : Fin cfg0.N) (j : Fin 16) (k : Fin 64) :
    iblk m c 2 t (ix2 k j) = m ((c : Thread nD τ).loc main_arg2) (ix2 j k) := by
  obtain ⟨e00, e01, e10, e11, e20, e21, e30, e31, e40, e41, e50, e51, e60, e61⟩ := idx_facts t
  show V m c main_v3 (((cfg0.win 2).blk t).view.emb (ix2 k j)) = _
  have he : ((cfg0.win 2).blk t).view.emb (ix2 k j) = ix2 k j := funext fun d => Fin.ext (by
    match d with
    | ⟨0, _⟩ => show win0_2.index t (0 : Fin 2) * 64 + 1 * k.val = k.val; omega
    | ⟨1, _⟩ => show win0_2.index t (1 : Fin 2) * 16 + 1 * j.val = j.val; omega)
  rw [he, V_v3]

theorem iblk3_apply (c : Dev nD) (t : Fin cfg0.N) (j : Fin 64) (k : Fin 32) :
    iblk m c 3 t (ix2 k j) = m ((c : Thread nD τ).loc main_arg3) (ix2 j k) := by
  obtain ⟨e00, e01, e10, e11, e20, e21, e30, e31, e40, e41, e50, e51, e60, e61⟩ := idx_facts t
  show V m c main_v5 (((cfg0.win 3).blk t).view.emb (ix2 k j)) = _
  have he : ((cfg0.win 3).blk t).view.emb (ix2 k j) = ix2 k j := funext fun d => Fin.ext (by
    match d with
    | ⟨0, _⟩ => show win0_3.index t (0 : Fin 2) * 32 + 1 * k.val = k.val; omega
    | ⟨1, _⟩ => show win0_3.index t (1 : Fin 2) * 64 + 1 * j.val = j.val; omega)
  rw [he, V_v5]

theorem iblk4_apply (c : Dev nD) (t : Fin cfg0.N) (j : Fin 64) (k : Fin 64) :
    iblk m c 4 t (ix2 k j) = m ((c : Thread nD τ).loc main_arg4) (ix2 j k) := by
  obtain ⟨e00, e01, e10, e11, e20, e21, e30, e31, e40, e41, e50, e51, e60, e61⟩ := idx_facts t
  show V m c main_v7 (((cfg0.win 4).blk t).view.emb (ix2 k j)) = _
  have he : ((cfg0.win 4).blk t).view.emb (ix2 k j) = ix2 k j := funext fun d => Fin.ext (by
    match d with
    | ⟨0, _⟩ => show win0_4.index t (0 : Fin 2) * 64 + 1 * k.val = k.val; omega
    | ⟨1, _⟩ => show win0_4.index t (1 : Fin 2) * 64 + 1 * j.val = j.val; omega)
  rw [he, V_v7]

theorem iblk5_apply (c : Dev nD) (t : Fin cfg0.N) (j : Fin 3) (k : Fin 64) :
    iblk m c 5 t (ix2 k j) = m ((c : Thread nD τ).loc main_arg5) (ix2 j k) := by
  obtain ⟨e00, e01, e10, e11, e20, e21, e30, e31, e40, e41, e50, e51, e60, e61⟩ := idx_facts t
  show V m c main_v9 (((cfg0.win 5).blk t).view.emb (ix2 k j)) = _
  have he : ((cfg0.win 5).blk t).view.emb (ix2 k j) = ix2 k j := funext fun d => Fin.ext (by
    match d with
    | ⟨0, _⟩ => show win0_5.index t (0 : Fin 2) * 64 + 1 * k.val = k.val; omega
    | ⟨1, _⟩ => show win0_5.index t (1 : Fin 2) * 3 + 1 * j.val = j.val; omega)
  rw [he, V_v9]

/-! ## What a point writes back, and the array after the run -/

/-- Point `t` writes, at `(p, cc)` of its block, the result at row `16384 t + p`. -/
theorem flushed_at (c : Dev nD) (t : Fin cfg0.N) (p : Fin 16384) (cc : Fin 4) :
    (dats m 0 c).flushed 6 t (ix2 p cc) = result m c (ix2 (rowAt t p) cc) := by
  rw [Value.flushed6_A]
  show out0_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) (iblk m c 4 t) (iblk m c 5 t) (ix2 p cc) = _
  exact block_apply_of c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) (iblk m c 4 t) (iblk m c 5 t) p cc
    _ _ _ _ _ _
    (fun k => iblk0_apply m c t p k) (fun j k => iblk1_apply m c t j k) (fun j k => iblk2_apply m c t j k)
    (fun j k => iblk3_apply m c t j k) (fun j k => iblk4_apply m c t j k) (fun j k => iblk5_apply m c t j k)

/-- WHAT POINT `t` WRITES BACK is block `t` of the result. -/
theorem flushed_eq (c : Dev nD) (t : Fin cfg0.N) :
    (dats m 0 c).flushed 6 t = ((cfg0.win 6).blk t).view.read (Elt Ideal) (result m c) := by
  refine funext fun (j : S16384x4.Idx) => ?_
  obtain ⟨p, cc, rfl⟩ : ∃ (p : Fin 16384) (cc : Fin 4), j = ix2 p cc := ⟨j 0, j 1, eq_ix2 j⟩
  refine (flushed_at m c t p cc).trans ?_
  show result m c (ix2 (rowAt t p) cc) = result m c (((cfg0.win 6).blk t).view.emb (ix2 p cc))
  obtain ⟨e00, e01, e10, e11, e20, e21, e30, e31, e40, e41, e50, e51, e60, e61⟩ := idx_facts t
  refine congrArg _ (funext fun d => Fin.ext ?_)
  match d with
  | ⟨0, _⟩ => show t.val * 16384 + p.val = win0_6.index t (0 : Fin 2) * 16384 + 1 * p.val; omega
  | ⟨1, _⟩ => show cc.val = win0_6.index t (1 : Fin 2) * 4 + 1 * cc.val; omega

/-- An index of the array is in point `t`'s block iff each coordinate is in the block's range on its axis. -/
theorem mem_blk (t : Fin cfg0.N) (i : S2097152x4.Idx) :
    i ∈ ((cfg0.win 6).blk t).view.set ↔ ∀ a : Fin 2, win0_6.index t a * S16384x4.size a ≤ (i a).val ∧ (i a).val < win0_6.index t a * S16384x4.size a + S16384x4.size a := by
  show i ∈ ((View.whole main_v10).slice (win0_6.rect t)).set ↔ _
  rw [View.set_slice_whole, Rect.mem_set_unit]
  exact Iff.rfl

/-- THE COVER: row `r` lies in the block of point `r / 16384`. -/
theorem cover (i : S2097152x4.Idx) :
    ∃ t : Fin cfg0.N, (cfg0.win 6).flush t = true ∧ i ∈ ((cfg0.win 6).blk t).view.set := by
  have hN : cfg0.N = 128 := N_0
  have hi0 : (i 0).val < 2097152 := (i 0).isLt
  have hi1 : (i 1).val < 4 := (i 1).isLt
  refine ⟨⟨(i 0).val / 16384, by omega⟩, flush0_6 _, ?_⟩
  rw [mem_blk]
  obtain ⟨e00, e01, e10, e11, e20, e21, e30, e31, e40, e41, e50, e51, e60, e61⟩ := idx_facts ⟨(i 0).val / 16384, by omega⟩
  intro a
  match a with
  | ⟨0, _⟩ =>
    show win0_6.index _ (0 : Fin 2) * 16384 ≤ (i 0).val ∧ (i 0).val < win0_6.index _ (0 : Fin 2) * 16384 + 16384
    rw [e60]
    show (i 0).val / 16384 * 16384 ≤ (i 0).val ∧ (i 0).val < (i 0).val / 16384 * 16384 + 16384
    omega
  | ⟨1, _⟩ =>
    show win0_6.index _ (1 : Fin 2) * 4 ≤ (i 1).val ∧ (i 1).val < win0_6.index _ (1 : Fin 2) * 4 + 4
    rw [e61]
    omega

/-- THE ARRAY after the run is the result. -/
theorem final (c : Dev nD) : (dats m 0 c).arrAt 6 cfg0.N = result m c :=
  (dats m 0 c).arrAt_eq_of_cover 6 (result m c) (fun t _ => flushed_eq m c t) cover

/-- The idealized kernel's run: the result array ends at the network of the arguments, the arguments unchanged. -/
theorem run : θ_run defs (onTc (τ := τ) (main (F := Ideal))) ⟨m, fun _ => 0, ρ⟩ fun r => ∀ c : Dev nD,
      r.2.mem ((c : Thread nD τ).loc main_v10) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.Block

end
-- ==== Proof.RefRows.lean ====
import proofs.«181616_j38723425141338_2_alg».proof.Proof.Gen.ReferenceIdeal.Read
import proofs.«181616_j38723425141338_2_alg».proof.Proof.Spec

/-!
The reference program, read one row at a time.

Each stage of the reference is an array with one row per sample. Read at the explicit coordinates `(r, k)`, every
stage is the corresponding quantity of the row network of the specification applied to row `r` of `x`:
a slice picks a stretch of the row, a product with a transposed weight `Wᵀ` is the sum `∑ k, a k · W j k`,
`max · 0` is the rectifier, a concatenation along the columns reads its first or its second piece by the column,
and `1 / (1 + exp (-z))` is the logistic function. Both sides do the same operations in the same order, so every
step is an equality on the extended reals with no side condition.
-/

noncomputable section

namespace Cert.ReferenceIdeal.RefRows

open Cert.ReferenceIdeal Cert.ReferenceIdeal.Gen Cert.ReferenceIdeal.Read Idealize.ShloMosaic Idealize.ShloMosaic.ValueIdx Cert.Mlp

/-- The argument arrays, as the reference names their types. -/
abbrev ArgX := (⟨S2097152x48, .f32⟩ : BufTy).Contents (Elt Ideal)
abbrev Arg64x32 := (⟨S64x32, .f32⟩ : BufTy).Contents (Elt Ideal)
abbrev Arg16x64 := (⟨S16x64, .f32⟩ : BufTy).Contents (Elt Ideal)
abbrev Arg64x64 := (⟨S64x64, .f32⟩ : BufTy).Contents (Elt Ideal)
abbrev Arg3x64 := (⟨S3x64, .f32⟩ : BufTy).Contents (Elt Ideal)

/-! ## The two slices of a row -/

/-- Columns 0–15 of row `r`: the direction. -/
theorem v0_at (x0 : ArgX) (r : Fin 2097152) (k : Fin 16) :
    val_main_v0 (F := Ideal) x0 (ix2 r k) = dir (rowOf x0 r) k := by
  rw [val_main_v0_apply]
  show x0 _ = x0 _
  congr 1
  funext a
  match a with
  | ⟨0, _⟩ => rfl
  | ⟨1, _⟩ => rfl

/-- Columns 16–47 of row `r`: the position. -/
theorem v1_at (x0 : ArgX) (r : Fin 2097152) (k : Fin 32) :
    val_main_v1 (F := Ideal) x0 (ix2 r k) = pos (rowOf x0 r) k := by
  rw [val_main_v1_apply]
  show x0 _ = x0 _
  congr 1
  funext a
  match a with
  | ⟨0, _⟩ => rfl
  | ⟨1, _⟩ => rfl

/-! ## The density net -/

/-- The rectifier's zero operand: the f32 zero word, at every index. -/
theorem zero0_at (i : S2097152x64.Idx) :
    val_main_call0_v0 (F := Ideal) i = Ideal.ofBits .f32 0x00000000#32 := by
  rw [val_main_call0_v0_apply, val_main_call0_cst_apply]
  rfl

/-- The transposed first weight at `(k, j)` is the weight at `(j, k)`. -/
theorem v2_at (x1 : Arg64x32) (k : Fin 32) (j : Fin 64) :
    val_main_v2 (F := Ideal) x1 (ix2 k j) = mat x1 j k := by
  rw [val_main_v2_apply]
  show x1 _ = x1 _
  congr 1
  funext a
  match a with
  | ⟨0, _⟩ => rfl
  | ⟨1, _⟩ => rfl

/-- The hidden layer of the density net. -/
theorem v4_at (x0 : ArgX) (x1 : Arg64x32) (r : Fin 2097152) (j : Fin 64) :
    val_main_v4 (F := Ideal) x0 x1 (ix2 r j) = hid (rowOf x0 r) (mat x1) j := by
  rw [val_main_v4_apply, val_main_v3_apply, zero0_at]
  show max _ _ = max _ _
  congr 1
  refine Finset.sum_congr rfl fun k _ => ?_
  have el : lidx_main_v3 (ix2 r j) k = ix2 r k := funext fun a => by
    match a with
    | ⟨0, _⟩ => rfl
    | ⟨1, _⟩ => rfl
  have er : ridx_main_v3 (ix2 r j) k = ix2 k j := funext fun a => by
    match a with
    | ⟨0, _⟩ => rfl
    | ⟨1, _⟩ => rfl
  rw [el, er, v1_at, v2_at]

/-- The transposed second weight at `(j, q)` is the weight at `(q, j)`. -/
theorem v5_at (x2 : Arg16x64) (j : Fin 64) (q : Fin 16) :
    val_main_v5 (F := Ideal) x2 (ix2 j q) = mat x2 q j := by
  rw [val_main_v5_apply]
  show x2 _ = x2 _
  congr 1
  funext a
  match a with
  | ⟨0, _⟩ => rfl
  | ⟨1, _⟩ => rfl

/-- The density net's sixteen outputs. -/
theorem v6_at (x0 : ArgX) (x1 : Arg64x32) (x2 : Arg16x64) (r : Fin 2097152) (q : Fin 16) :
    val_main_v6 (F := Ideal) x0 x1 x2 (ix2 r q) = feat (rowOf x0 r) (mat x1) (mat x2) q := by
  rw [val_main_v6_apply]
  show _ = ∑ j : Fin 64, _
  refine Finset.sum_congr rfl fun k _ => ?_
  have el : lidx_main_v6 (ix2 r q) k = ix2 r k := funext fun a => by
    match a with
    | ⟨0, _⟩ => rfl
    | ⟨1, _⟩ => rfl
  have er : ridx_main_v6 (ix2 r q) k = ix2 k q := funext fun a => by
    match a with
    | ⟨0, _⟩ => rfl
    | ⟨1, _⟩ => rfl
  rw [el, er, v4_at, v5_at]

/-! ## The colour net -/

/-- The colour net's input: the direction in columns 0–15, the density net's outputs in columns 16–31. -/
theorem v10_at (x0 : ArgX) (x1 : Arg64x32) (x2 : Arg16x64) (r : Fin 2097152) (k : Fin 32) :
    val_main_v10 (F := Ideal) x0 x1 x2 (ix2 r k) = cin (rowOf x0 r) (mat x1) (mat x2) k := by
  unfold val_main_v10 cin
  by_cases h : k.val < 16
  · rw [dif_pos h, ← v0_at]
    exact concatenate_pair_apply_left (t := S2097152x32) (s₁ := S2097152x16) (s₂ := S2097152x16) (1 : Fin 2) _ _ _ (ix2 r k) rfl (ix2 r ⟨k.val, h⟩) (fun b => by
      match b with
      | ⟨0, _⟩ => rfl
      | ⟨1, _⟩ => rfl)
  · rw [dif_neg h, ← v6_at]
    have hk := k.isLt
    exact concatenate_pair_apply_right (t := S2097152x32) (s₁ := S2097152x16) (s₂ := S2097152x16) (1 : Fin 2) _ _ _ (ix2 r k) rfl rfl (ix2 r ⟨k.val - 16, by omega⟩) (fun b hb => by
      match b with
      | ⟨0, _⟩ => rfl
      | ⟨1, _⟩ => exact absurd rfl hb) (by
      show k.val - 16 + 16 = k.val
      omega)

/-- The rectifier's zero operand of the colour net's first layer. -/
theorem zero1_at (i : S2097152x64.Idx) :
    val_main_call1_v0 (F := Ideal) i = Ideal.ofBits .f32 0x00000000#32 := by
  rw [val_main_call1_v0_apply, val_main_call1_cst_apply]
  rfl

/-- The rectifier's zero operand of the colour net's second layer. -/
theorem zero2_at (i : S2097152x64.Idx) :
    val_main_call2_v0 (F := Ideal) i = Ideal.ofBits .f32 0x00000000#32 := by
  rw [val_main_call2_v0_apply, val_main_call2_cst_apply]
  rfl

/-- The transposed third weight at `(k, j)` is the weight at `(j, k)`. -/
theorem v11_at (x3 : Arg64x32) (k : Fin 32) (j : Fin 64) :
    val_main_v11 (F := Ideal) x3 (ix2 k j) = mat x3 j k := by
  rw [val_main_v11_apply]
  show x3 _ = x3 _
  congr 1
  funext a
  match a with
  | ⟨0, _⟩ => rfl
  | ⟨1, _⟩ => rfl

/-- The colour net's first hidden layer. -/
theorem v13_at (x0 : ArgX) (x1 : Arg64x32) (x2 : Arg16x64) (x3 : Arg64x32) (r : Fin 2097152) (j : Fin 64) :
    val_main_v13 (F := Ideal) x0 x1 x2 x3 (ix2 r j) = col1 (rowOf x0 r) (mat x1) (mat x2) (mat x3) j := by
  rw [val_main_v13_apply, val_main_v12_apply, zero1_at]
  show max _ _ = max _ _
  congr 1
  refine Finset.sum_congr rfl fun k _ => ?_
  have el : lidx_main_v12 (ix2 r j) k = ix2 r k := funext fun a => by
    match a with
    | ⟨0, _⟩ => rfl
    | ⟨1, _⟩ => rfl
  have er : ridx_main_v12 (ix2 r j) k = ix2 k j := funext fun a => by
    match a with
    | ⟨0, _⟩ => rfl
    | ⟨1, _⟩ => rfl
  rw [el, er, v10_at, v11_at]

/-- The transposed fourth weight at `(k, j)` is the weight at `(j, k)`. -/
theorem v14_at (x4 : Arg64x64) (k : Fin 64) (j : Fin 64) :
    val_main_v14 (F := Ideal) x4 (ix2 k j) = mat x4 j k := by
  rw [val_main_v14_apply]
  show x4 _ = x4 _
  congr 1
  funext a
  match a with
  | ⟨0, _⟩ => rfl
  | ⟨1, _⟩ => rfl

/-- The colour net's second hidden layer. -/
theorem v16_at (x0 : ArgX) (x1 : Arg64x32) (x2 : Arg16x64) (x3 : Arg64x32) (x4 : Arg64x64) (r : Fin 2097152) (j : Fin 64) :
    val_main_v16 (F := Ideal) x0 x1 x2 x3 x4 (ix2 r j)
      = col2 (rowOf x0 r) (mat x1) (mat x2) (mat x3) (mat x4) j := by
  rw [val_main_v16_apply, val_main_v15_apply, zero2_at]
  show max _ _ = max _ _
  congr 1
  refine Finset.sum_congr rfl fun k _ => ?_
  have el : lidx_main_v15 (ix2 r j) k = ix2 r k := funext fun a => by
    match a with
    | ⟨0, _⟩ => rfl
    | ⟨1, _⟩ => rfl
  have er : ridx_main_v15 (ix2 r j) k = ix2 k j := funext fun a => by
    match a with
    | ⟨0, _⟩ => rfl
    | ⟨1, _⟩ => rfl
  rw [el, er, v13_at, v14_at]

/-- The transposed fifth weight at `(k, q)` is the weight at `(q, k)`. -/
theorem v17_at (x5 : Arg3x64) (k : Fin 64) (q : Fin 3) :
    val_main_v17 (F := Ideal) x5 (ix2 k q) = mat x5 q k := by
  rw [val_main_v17_apply]
  show x5 _ = x5 _
  congr 1
  funext a
  match a with
  | ⟨0, _⟩ => rfl
  | ⟨1, _⟩ => rfl

/-- The three colour logits. -/
theorem v18_at (x0 : ArgX) (x1 : Arg64x32) (x2 : Arg16x64) (x3 : Arg64x32) (x4 : Arg64x64) (x5 : Arg3x64)
    (r : Fin 2097152) (q : Fin 3) :
    val_main_v18 (F := Ideal) x0 x1 x2 x3 x4 x5 (ix2 r q)
      = logit (rowOf x0 r) (mat x1) (mat x2) (mat x3) (mat x4) (mat x5) q := by
  rw [val_main_v18_apply]
  show _ = ∑ k : Fin 64, _
  refine Finset.sum_congr rfl fun k _ => ?_
  have el : lidx_main_v18 (ix2 r q) k = ix2 r k := funext fun a => by
    match a with
    | ⟨0, _⟩ => rfl
    | ⟨1, _⟩ => rfl
  have er : ridx_main_v18 (ix2 r q) k = ix2 k q := funext fun a => by
    match a with
    | ⟨0, _⟩ => rfl
    | ⟨1, _⟩ => rfl
  rw [el, er, v16_at, v17_at]

/-! ## The colours and the density -/

/-- The f32 word `0x3F800000` is the number one. -/
theorem one_f32 : Ideal.ofBits .f32 0x3F800000#32 = 1 := by
  simp [Ideal.ofBits, Ideal.ieee, -EReal.coe_mul]
  norm_num

/-- The colours: `1 / (1 + exp (-z))` of a logit `z` is the logistic function of it. -/
theorem v24_at (x0 : ArgX) (x1 : Arg64x32) (x2 : Arg16x64) (x3 : Arg64x32) (x4 : Arg64x64) (x5 : Arg3x64)
    (r : Fin 2097152) (q : Fin 3) :
    val_main_v24 (F := Ideal) x0 x1 x2 x3 x4 x5 (ix2 r q)
      = Ideal.logistic (logit (rowOf x0 r) (mat x1) (mat x2) (mat x3) (mat x4) (mat x5) q) := by
  rw [val_main_v24_apply, val_main_v23_apply, val_main_cst_0_apply, val_main_v22_apply, val_main_v21_apply,
    val_main_cst_apply, val_main_v20_apply, val_main_v19_apply, v18_at]
  show Ideal.div (Ideal.ofBits .f32 0x3F800000#32) (Ideal.ofBits .f32 0x3F800000#32 + Ideal.exp (-_)) = _
  rw [one_f32]
  rfl

/-- The density: `exp` of the density net's output 0, in the one column of an `[N, 1]` array. -/
theorem v25_at (x0 : ArgX) (x1 : Arg64x32) (x2 : Arg16x64) (r : Fin 2097152) (c : Fin 1) :
    val_main_v25 (F := Ideal) x0 x1 x2 (ix2 r c) = sigma (rowOf x0 r) (mat x1) (mat x2) := by
  rw [val_main_v25_apply, val_main_v9_apply, val_main_v8_apply, val_main_v7_apply]
  have e : idx_main_v7 (idx_main_v8 (idx_main_v25 (ix2 r c))) = ix2 r (⟨0, by omega⟩ : Fin 16) := funext fun a => Fin.ext (by
    match a with
    | ⟨0, _⟩ => exact Nat.div_one r.val
    | ⟨1, _⟩ => rfl)
  rw [e, v6_at]
  rfl

/-! ## The result array -/

/-- Row `r` of the result: the three colours in columns 0–2, the density in column 3. -/
theorem v26_at (x0 : ArgX) (x1 : Arg64x32) (x2 : Arg16x64) (x3 : Arg64x32) (x4 : Arg64x64) (x5 : Arg3x64)
    (r : Fin 2097152) (c : Fin 4) :
    val_main_v26 (F := Ideal) x0 x1 x2 x3 x4 x5 (ix2 r c)
      = out (rowOf x0 r) (mat x1) (mat x2) (mat x3) (mat x4) (mat x5) c := by
  unfold val_main_v26 out
  by_cases h : c.val < 3
  · rw [dif_pos h, ← v24_at]
    exact concatenate_pair_apply_left (t := S2097152x4) (s₁ := S2097152x3) (s₂ := S2097152x1) (1 : Fin 2) _ _ _ (ix2 r c) rfl
      (ix2 r ⟨c.val, h⟩) (fun b => by
      match b with
      | ⟨0, _⟩ => rfl
      | ⟨1, _⟩ => rfl)
  · rw [dif_neg h, ← v25_at x0 x1 x2 r 0]
    have hc := c.isLt
    exact concatenate_pair_apply_right (t := S2097152x4) (s₁ := S2097152x3) (s₂ := S2097152x1) (1 : Fin 2) _ _ _ (ix2 r c) rfl rfl
      (ix2 r (0 : Fin 1)) (fun b hb => by
      match b with
      | ⟨0, _⟩ => rfl
      | ⟨1, _⟩ => exact absurd rfl hb) (by
      show 0 + 3 = c.val
      omega)

/-- THE REFERENCE IS THE ROW NETWORK ON EVERY ROW: its result array is `whole` of its arguments. -/
theorem ref_is_whole (x0 : (⟨S2097152x48, .f32⟩ : BufTy).Contents (Elt Ideal)) (x1 : (⟨S64x32, .f32⟩ : BufTy).Contents (Elt Ideal))
    (x2 : (⟨S16x64, .f32⟩ : BufTy).Contents (Elt Ideal)) (x3 : (⟨S64x32, .f32⟩ : BufTy).Contents (Elt Ideal))
    (x4 : (⟨S64x64, .f32⟩ : BufTy).Contents (Elt Ideal)) (x5 : (⟨S3x64, .f32⟩ : BufTy).Contents (Elt Ideal)) :
    Cert.ReferenceIdeal.Read.val_main_v26 (F := Ideal) x0 x1 x2 x3 x4 x5 = Cert.Mlp.whole x0 x1 x2 x3 x4 x5 := by
  funext i
  obtain ⟨r, c, rfl⟩ : ∃ (r : Fin 2097152) (c : Fin 4), i = ix2 r c := ⟨i 0, i 1, eq_ix2 i⟩
  exact v26_at x0 x1 x2 x3 x4 x5 r c

end Cert.ReferenceIdeal.RefRows

end
-- ==== Proof.lean ====
/-
  A two-headed network on 2097152 samples: a density net `Linear(32→64) · relu · Linear(64→16)` on a sample's position,
  whose entry 0 gives the density `exp`, and a colour net `Linear(32→64) · relu · Linear(64→64) · relu · Linear(64→3) ·
  logistic` on the sample's direction followed by the density net's 16 outputs. The kernel runs it 16384 samples at
  a time, with the weights transposed (and narrowed to bf16) once before the call, the matrix products into a zero
  accumulator, the logistic as one operation, and the result stored as two column ranges of its block; the reference
  runs it on the whole array with `W.T` products, the logistic spelt `1 / (1 + exp (-z))` and a concatenation.

  On the extended reals these are one function (`Cert.Mlp.whole`, Proof/Spec.lean): a change of float format is the
  identity, a product into a zero accumulator and a `dot_general` are the same finite sum in the same order, the
  logistic IS `1 / (1 + exp (-z))`, and the kernel's blocks tile the rows. No step uses more than that — no
  distributivity, no cancellation — so the finiteness of the inputs is never used.
  * the idealized kernel's result array is `whole` of the arguments: Proof/KernelRows.lean (the body's payloads entry
    by entry) and Proof/KernelBlock.lean (the two stores, the blocks, the host-prepared weights, the cover);
  * the idealized reference's result is `whole` of the arguments: Proof/RefRows.lean, stage by stage;
  * the three frames are the generated frame runs; the idealization rewrote nothing, so `preserves` is `True`.
-/
import proofs.«181616_j38723425141338_2_alg».proof.Defs
import proofs.«181616_j38723425141338_2_alg».proof.Proof.Gen.Kernel
import proofs.«181616_j38723425141338_2_alg».proof.Proof.Gen.Kernel.Frame
import proofs.«181616_j38723425141338_2_alg».proof.Proof.Gen.KernelIdeal
import proofs.«181616_j38723425141338_2_alg».proof.Proof.Gen.KernelIdeal.Frame
import proofs.«181616_j38723425141338_2_alg».proof.Proof.Gen.ReferenceIdeal
import proofs.«181616_j38723425141338_2_alg».proof.Proof.Gen.Pre_finite_inputs
import proofs.«181616_j38723425141338_2_alg».proof.Proof.Gen.KernelIdeal.Value
import proofs.«181616_j38723425141338_2_alg».proof.Proof.Gen.ReferenceIdeal.Run
import proofs.«181616_j38723425141338_2_alg».proof.Proof.Gen.ReferenceIdeal.Read
import proofs.«181616_j38723425141338_2_alg».proof.Proof.KernelBlock
import proofs.«181616_j38723425141338_2_alg».proof.Proof.RefRows
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments, both idealized programs end with the result array at the network of
    the arguments, row by row. -/
theorem algebraic : Cert.algebraic_KernelIdeal_ReferenceIdeal := by
  intro m ρ m' ρ' _ hagree
  refine ⟨fun c => Cert.KernelIdeal.Block.result m c, Cert.KernelIdeal.Block.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v26_eq, Cert.ReferenceIdeal.RefRows.ref_is_whole,
    (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
